-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096x128 : Shape := ⟨4, ![8, 16, 4096, 128]⟩
abbrev S_ : Shape := ⟨0, ![]⟩

class Facts : Prop where
  bcast_S_S8x16x4096x128 : S_.BroadcastsInDim S8x16x4096x128 (![] : Fin 0 → Fin S8x16x4096x128.rank)
  reducesTo_S8x16x4096x128_S_d0_1_2_3 : S8x16x4096x128.ReducesTo [0, 1, 2, 3] S_
  h_S_ : 0 < S_.numel

variable [Facts]

def fn {F : FTy → Type} [FloatOps F] (main_arg0 : FVec F S8x16x4096x128 .f32) (main_arg1 : FVec F S8x16x4096x128 .f32) (main_arg2 : FVec F S8x16x4096x128 .f32) : IVec S_ 1 :=
  let main_v0 : FVec F S8x16x4096x128 .f32 := Host.absf main_arg0
  let main_cst : FVec F S_ .f32 := constant S_ .f32 0x7F800000#32
  let main_v1 : FVec F S8x16x4096x128 .f32 := broadcastInDim S8x16x4096x128 ![] bcast_S_S8x16x4096x128 main_cst
  let main_v2 : IVec S8x16x4096x128 1 := cmpf .olt main_v0 main_v1
  let main_c : IVec S_ 1 := constantI S_ 1 1#1
  let main_v3 : IVec S_ 1 := (fun x v => Host.reduce IntOp.andi x v reducesTo_S8x16x4096x128_S_d0_1_2_3 h_S_) main_v2 main_c
  let main_v4 : FVec F S8x16x4096x128 .f32 := Host.absf main_arg1
  let main_cst_0 : FVec F S_ .f32 := constant S_ .f32 0x7F800000#32
  let main_v5 : FVec F S8x16x4096x128 .f32 := broadcastInDim S8x16x4096x128 ![] bcast_S_S8x16x4096x128 main_cst_0
  let main_v6 : IVec S8x16x4096x128 1 := cmpf .olt main_v4 main_v5
  let main_c_1 : IVec S_ 1 := constantI S_ 1 1#1
  let main_v7 : IVec S_ 1 := (fun x v => Host.reduce IntOp.andi x v reducesTo_S8x16x4096x128_S_d0_1_2_3 h_S_) main_v6 main_c_1
  let main_v8 : IVec S_ 1 := andi main_v3 main_v7
  let main_v9 : FVec F S8x16x4096x128 .f32 := Host.absf main_arg2
  let main_cst_2 : FVec F S_ .f32 := constant S_ .f32 0x7F800000#32
  let main_v10 : FVec F S8x16x4096x128 .f32 := broadcastInDim S8x16x4096x128 ![] bcast_S_S8x16x4096x128 main_cst_2
  let main_v11 : IVec S8x16x4096x128 1 := cmpf .olt main_v9 main_v10
  let main_c_3 : IVec S_ 1 := constantI S_ 1 1#1
  let main_v12 : IVec S_ 1 := (fun x v => Host.reduce IntOp.andi x v reducesTo_S8x16x4096x128_S_d0_1_2_3 h_S_) main_v11 main_c_3
  let main_v13 : IVec S_ 1 := andi main_v8 main_v12
  main_v13
-- ==== Kernel.lean ====
abbrev S8x16x4096x128 : Shape := ⟨4, ![8, 16, 4096, 128]⟩
abbrev S128x4096x128 : Shape := ⟨3, ![128, 4096, 128]⟩
abbrev S32x256x128 : Shape := ⟨3, ![32, 256, 128]⟩
abbrev S64x128x128 : Shape := ⟨3, ![64, 128, 128]⟩
abbrev S64x128 : Shape := ⟨2, ![64, 128]⟩
abbrev S64x128x1 : Shape := ⟨3, ![64, 128, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x16x4096x128, .f32⟩
  | .hbm, ⟨1, _⟩ => ⟨S8x16x4096x128, .f32⟩
  | .hbm, ⟨2, _⟩ => ⟨S8x16x4096x128, .f32⟩
  | .hbm, ⟨3, _⟩ => ⟨S128x4096x128, .f32⟩
  | .hbm, ⟨4, _⟩ => ⟨S128x4096x128, .f32⟩
  | .hbm, ⟨5, _⟩ => ⟨S128x4096x128, .f32⟩
  | .hbm, ⟨6, _⟩ => ⟨S128x4096x128, .f32⟩
  | .hbm, ⟨7, _⟩ => ⟨S8x16x4096x128, .f32⟩
  | .local _ .vmem, ⟨0, _⟩ => ⟨S32x256x128, .f32⟩
  | .local _ .vmem, ⟨1, _⟩ => ⟨S32x256x128, .f32⟩
  | .local _ .vmem, ⟨2, _⟩ => ⟨S32x256x128, .f32⟩
  | .local _ .vmem, ⟨3, _⟩ => ⟨S32x256x128, .f32⟩
  | .local _ .vmem, ⟨4, _⟩ => ⟨S32x256x128, .f32⟩
  | .local _ .vmem, ⟨5, _⟩ => ⟨S32x256x128, .f32⟩
  | .local _ .vmem, ⟨6, _⟩ => ⟨S32x256x128, .f32⟩
  | .local _ .vmem, ⟨7, _⟩ => ⟨S32x256x128, .f32⟩
  | _, _ => ⟨S8x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x16x4096x128_S128x4096x128 : S8x16x4096x128.ShapeCasts S128x4096x128
  inb_S32x256x128_S32x256x128_0_0_0 : ∀ a, (![0, 0, 0] : Fin 3 → Nat) a + S32x256x128.size a ≤ S32x256x128.size a
  h_S32x256x128 : 0 < S32x256x128.numel
  shapeCasts_S32x256x128_S32x256x128 : S32x256x128.ShapeCasts S32x256x128
  shapeCasts_S32x256x128_S64x128x128 : S32x256x128.ShapeCasts S64x128x128
  reduces_S64x128x128_S64x128 : S64x128x128.Reduces [2] S64x128
  shapeCasts_S64x128_S64x128x1 : S64x128.ShapeCasts S64x128x1
  broadcasts_S64x128x1_S64x128x128 : S64x128x1.Broadcasts S64x128x128
  shapeCasts_S64x128x128_S32x256x128 : S64x128x128.ShapeCasts S32x256x128
  shapeCasts_S128x4096x128_S8x16x4096x128 : S128x4096x128.ShapeCasts S8x16x4096x128
  dot_S64x128x128_S64x128x128_S64x128x128_2_2_1_1_0_0_wf : DotDims.WF S64x128x128 S64x128x128 S64x128x128 [2] [2] [1] [1] [0] [0]
  dot_S64x128x128_S64x128x128_S64x128x128_2_1_1_2_0_0_wf : DotDims.WF S64x128x128 S64x128x128 S64x128x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x128.size a ≤ S128x4096x128.size a
  hwx0_0 : ∀ i : grid0.Coords, EltTy.bits .f32 = 32 ∨ (Rect.block (s := S128x4096x128) S32x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x128.size a ≤ S128x4096x128.size a
  hwx0_1 : ∀ i : grid0.Coords, EltTy.bits .f32 = 32 ∨ (Rect.block (s := S128x4096x128) S32x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x128.size a ≤ S128x4096x128.size a
  hwx0_2 : ∀ i : grid0.Coords, EltTy.bits .f32 = 32 ∨ (Rect.block (s := S128x4096x128) S32x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256x128.size a ≤ S128x4096x128.size a
  hwx0_3 : ∀ i : grid0.Coords, EltTy.bits .f32 = 32 ∨ (Rect.block (s := S128x4096x128) S32x256x128.size (cc0_transform_3 i) (hinb0_3 i)).WholeWords (EltTy.packing .f32)

variable [Facts₀]

def dot_S64x128x128_S64x128x128_S64x128x128_2_2_1_1_0_0 : DotDims S64x128x128 S64x128x128 S64x128x128 where
  lhsContracting := [2]
  rhsContracting := [2]
  lhsNonContracting := [1]
  rhsNonContracting := [1]
  lhsBatch := [0]
  rhsBatch := [0]
  wf := dot_S64x128x128_S64x128x128_S64x128x128_2_2_1_1_0_0_wf
def dot_S64x128x128_S64x128x128_S64x128x128_2_1_1_2_0_0 : DotDims S64x128x128 S64x128x128 S64x128x128 where
  lhsContracting := [2]
  rhsContracting := [1]
  lhsNonContracting := [1]
  rhsNonContracting := [2]
  lhsBatch := [0]
  rhsBatch := [0]
  wf := dot_S64x128x128_S64x128x128_S64x128x128_2_1_1_2_0_0_wf

abbrev win0_0 : Pipeline.Window sig grid0 :=
  Pipeline.Window.ofSpec (Memref.whole main_v0) S32x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x4096x128 : Shape := ⟨4, ![8, 16, 4096, 128]⟩
abbrev S8x16x32x128x128 : Shape := ⟨5, ![8, 16, 32, 128, 128]⟩
abbrev S_ : Shape := ⟨0, ![]⟩
abbrev S8x16x32x128 : Shape := ⟨4, ![8, 16, 32, 128]⟩
abbrev S8x16x32x128x1 : Shape := ⟨5, ![8, 16, 32, 128, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x16x4096x128, .f32⟩
  | .hbm, ⟨1, _⟩ => ⟨S8x16x4096x128, .f32⟩
  | .hbm, ⟨2, _⟩ => ⟨S8x16x4096x128, .f32⟩
  | .hbm, ⟨3, _⟩ => ⟨S8x16x32x128x128, .f32⟩
  | .hbm, ⟨4, _⟩ => ⟨S8x16x32x128x128, .f32⟩
  | .hbm, ⟨5, _⟩ => ⟨S8x16x32x128x128, .f32⟩
  | .hbm, ⟨6, _⟩ => ⟨S8x16x32x128x128, .f32⟩
  | .hbm, ⟨7, _⟩ => ⟨S_, .f32⟩
  | .hbm, ⟨8, _⟩ => ⟨S8x16x32x128, .f32⟩
  | .hbm, ⟨9, _⟩ => ⟨S_, .f32⟩
  | .hbm, ⟨10, _⟩ => ⟨S8x16x32x128, .f32⟩
  | .hbm, ⟨11, _⟩ => ⟨S8x16x32x128, .f32⟩
  | .hbm, ⟨12, _⟩ => ⟨S8x16x32x128x1, .f32⟩
  | .hbm, ⟨13, _⟩ => ⟨S8x16x32x128x128, .f32⟩
  | .hbm, ⟨14, _⟩ => ⟨S8x16x32x128x128, .f32⟩
  | .hbm, ⟨15, _⟩ => ⟨S8x16x32x128x128, .f32⟩
  | .hbm, ⟨16, _⟩ => ⟨S_, .f32⟩
  | .hbm, ⟨17, _⟩ => ⟨S8x16x32x128, .f32⟩
  | .hbm, ⟨18, _⟩ => ⟨S8x16x32x128x1, .f32⟩
  | .hbm, ⟨19, _⟩ => ⟨S8x16x32x128x128, .f32⟩
  | .hbm, ⟨20, _⟩ => ⟨S8x16x32x128x128, .f32⟩
  | .hbm, ⟨21, _⟩ => ⟨S8x16x32x128x128, .f32⟩
  | .hbm, ⟨22, _⟩ => ⟨S8x16x4096x128, .f32⟩
  | _, _ => ⟨S8x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  shapeCasts_S8x16x4096x128_S8x16x32x128x128 : S8x16x4096x128.ShapeCasts S8x16x32x128x128
  reducesTo_S8x16x32x128x128_S8x16x32x128_d4 : S8x16x32x128x128.ReducesTo [4] S8x16x32x128
  h_S_ : 0 < S_.numel
  bcast_S_S8x16x32x128 : S_.BroadcastsInDim S8x16x32x128 (![] : Fin 0 → Fin S8x16x32x128.rank)
  bcast_S8x16x32x128_S8x16x32x128x1_0_1_2_3 : S8x16x32x128.BroadcastsInDim S8x16x32x128x1 (![0, 1, 2, 3] : Fin 4 → Fin S8x16x32x128x1.rank)
  bcast_S8x16x32x128x1_S8x16x32x128x128_0_1_2_3_4 : S8x16x32x128x1.BroadcastsInDim S8x16x32x128x128 (![0, 1, 2, 3, 4] : Fin 5 → Fin S8x16x32x128x128.rank)
  shapeCasts_S8x16x32x128x128_S8x16x4096x128 : S8x16x32x128x128.ShapeCasts S8x16x4096x128
  dot_S8x16x32x128x128_S8x16x32x128x128_S8x16x32x128x128_4_4_3_3_012_012_wf : DotDims.WF S8x16x32x128x128 S8x16x32x128x128 S8x16x32x128x128 [4] [4] [3] [3] [0, 1, 2] [0, 1, 2]
  dot_S8x16x32x128x128_S8x16x32x128x128_S8x16x32x128x128_4_3_3_4_012_012_wf : DotDims.WF S8x16x32x128x128 S8x16x32x128x128 S8x16x32x128x128 [4] [3] [3] [4] [0, 1, 2] [0, 1, 2]

variable [Facts₀]

def dot_S8x16x32x128x128_S8x16x32x128x128_S8x16x32x128x128_4_4_3_3_012_012 : DotDims S8x16x32x128x128 S8x16x32x128x128 S8x16x32x128x128 where
  lhsContracting := [4]
  rhsContracting := [4]
  lhsNonContracting := [3]
  rhsNonContracting := [3]
  lhsBatch := [0, 1, 2]
  rhsBatch := [0, 1, 2]
  wf := dot_S8x16x32x128x128_S8x16x32x128x128_S8x16x32x128x128_4_4_3_3_012_012_wf
def dot_S8x16x32x128x128_S8x16x32x128x128_S8x16x32x128x128_4_3_3_4_012_012 : DotDims S8x16x32x128x128 S8x16x32x128x128 S8x16x32x128x128 where
  lhsContracting := [4]
  rhsContracting := [3]
  lhsNonContracting := [3]
  rhsNonContracting := [4]
  lhsBatch := [0, 1, 2]
  rhsBatch := [0, 1, 2]
  wf := dot_S8x16x32x128x128_S8x16x32x128x128_S8x16x32x128x128_4_3_3_4_012_012_wf

class Facts : Prop extends Facts₀ where

variable [Facts]
-- ==== Proof.Attention.lean ====
/-
  Block-diagonal softmax attention as one function of the three argument arrays.

  The sequence axis (length 4096) is cut into 32 consecutive blocks of 128 rows. Inside one block, with
  `q`, `k`, `v` the block's 128 × 128 slabs of queries, keys and values:

    score w u  = Σ_e q w e · k u e
    weight w u = exp (score w u − max_u' score w u')          (the maximum taken from −∞)
    out w d    = Σ_u (weight w u / Σ_u' weight w u') · v u d

  Rows of different blocks never meet. `onSlabs` states this over arrays laid out [128, 4096, 128] (the
  batch and head axes merged), `onHeads` over arrays laid out [8, 16, 4096, 128]; `onSlabs_reshape` says the two
  are the same function through the row-major re-layouts [8, 16, …] ↔ [128, …].
-/
import Mathlib.Data.Finset.Fold
import Idealize.ShloMosaic.PureOps.Ideal
import Idealize.ShloMosaic.Lib.ValueIdx
import Idealize.ShloMosaic.Lib.Pipeline.Value

noncomputable section

open scoped BigOperators

namespace Cert.LocalAttention

open Idealize.ShloMosaic Idealize.ShloMosaic.ValueIdx

/-- The score of query row `w` against key row `u` of one block: their inner product over the feature axis. -/
def score (q k : Fin 128 → Fin 128 → EReal) (w u : Fin 128) : EReal := ∑ e : Fin 128, q w e * k u e

/-- The largest entry of a row of 128 scores, taken from −∞ (the f32 pattern of −∞ denotes the bottom element). -/
def rowMax (s : Fin 128 → EReal) : EReal :=
  (Finset.univ : Finset (Fin 128)).fold max (Ideal.ofBits .f32 0xFF800000#32) s

/-- The unnormalised softmax weight: the exponential of the score less its row's maximum. -/
def weight (q k : Fin 128 → Fin 128 → EReal) (w u : Fin 128) : EReal :=
  Ideal.exp (score q k w u - rowMax (score q k w))

/-- One block's output: the rows of `v` averaged with the normalised weights of row `w`. -/
def attend (q k v : Fin 128 → Fin 128 → EReal) (w d : Fin 128) : EReal :=
  ∑ u : Fin 128, Ideal.div (weight q k w u) (∑ u' : Fin 128, weight q k w u') * v u d

/-- `attend` respects equality of each of its arguments. -/
theorem attend_congr {q q' k k' v v' : Fin 128 → Fin 128 → EReal} {w w' d d' : Fin 128}
    (hq : q = q') (hk : k = k') (hv : v = v') (hw : w = w') (hd : d = d') :
    attend q k v w d = attend q' k' v' w' d' := by
  subst hq hk hv hw hd; rfl

/-- The maximum from a starting value absorbs that value: taking it once more against the start changes nothing. -/
theorem max_start_rowMax (s : Fin 128 → EReal) :
    max (Ideal.ofBits .f32 0xFF800000#32) (rowMax s) = rowMax s :=
  max_eq_right ((Finset.le_fold_max _).mpr (Or.inl le_rfl))

/-- The array shapes: batch × heads × sequence × features, and the same with batch and heads merged. -/
abbrev Heads : Shape := ⟨4, ![8, 16, 4096, 128]⟩
abbrev Slabs : Shape := ⟨3, ![128, 4096, 128]⟩

/-- Block `n` (rows 128 n … 128 n + 127) of slab `a` of an array laid out [128, 4096, 128]. -/
def slabBlock (x : Slabs.Idx → EReal) (a : Fin 128) (n : Fin 32) : Fin 128 → Fin 128 → EReal :=
  fun r e => x (ix3 a (⟨n.val * 128 + r.val, by have := n.isLt; have := r.isLt; omega⟩ : Fin 4096) e)

/-- Block `n` of head `h` of batch entry `b` of an array laid out [8, 16, 4096, 128]. -/
def headBlock (x : Heads.Idx → EReal) (b : Fin 8) (h : Fin 16) (n : Fin 32) : Fin 128 → Fin 128 → EReal :=
  fun r e => x (ix4 b h (⟨n.val * 128 + r.val, by have := n.isLt; have := r.isLt; omega⟩ : Fin 4096) e)

/-- Block-diagonal attention over [128, 4096, 128] arrays, at slab `a`, row `l`, feature `d`:
    row `l mod 128` of block `l / 128`. -/
def onSlabsAt (q k v : Slabs.Idx → EReal) (a : Fin 128) (l : Fin 4096) (d : Fin 128) : EReal :=
  attend (slabBlock q a ⟨l.val / 128, by have := l.isLt; omega⟩) (slabBlock k a ⟨l.val / 128, by have := l.isLt; omega⟩)
    (slabBlock v a ⟨l.val / 128, by have := l.isLt; omega⟩) ⟨l.val % 128, Nat.mod_lt _ (by decide)⟩ d

def onSlabs (q k v : Slabs.Idx → EReal) : Slabs.Idx → EReal := fun j =>
  onSlabsAt q k v ⟨(j 0).val, (j 0).isLt⟩ ⟨(j 1).val, (j 1).isLt⟩ ⟨(j 2).val, (j 2).isLt⟩

/-- The same over [8, 16, 4096, 128] arrays, at batch entry `b`, head `h`, row `l`, feature `d`. -/
def onHeadsAt (q k v : Heads.Idx → EReal) (b : Fin 8) (h : Fin 16) (l : Fin 4096) (d : Fin 128) : EReal :=
  attend (headBlock q b h ⟨l.val / 128, by have := l.isLt; omega⟩) (headBlock k b h ⟨l.val / 128, by have := l.isLt; omega⟩)
    (headBlock v b h ⟨l.val / 128, by have := l.isLt; omega⟩) ⟨l.val % 128, Nat.mod_lt _ (by decide)⟩ d

def onHeads (q k v : Heads.Idx → EReal) : Heads.Idx → EReal := fun i =>
  onHeadsAt q k v ⟨(i 0).val, (i 0).isLt⟩ ⟨(i 1).val, (i 1).isLt⟩ ⟨(i 2).val, (i 2).isLt⟩ ⟨(i 3).val, (i 3).isLt⟩

/-- Merging batch and heads row-major: entry (b, h, l, e) of the [8, 16, …] array is entry (16 b + h, l, e) of the
    [128, …] one. -/
theorem merge_apply (x : Heads.Idx → EReal) (hc : Heads.ShapeCasts Slabs) (b : Fin 8) (h : Fin 16) (l : Fin 4096) (e : Fin 128) :
    shapeCast Slabs x hc (ix3 (⟨b.val * 16 + h.val, by have := b.isLt; have := h.isLt; omega⟩ : Fin 128) l e) = x (ix4 b h l e) := by
  refine shapeCast_apply x hc _ (ix4 b h l e) ?_
  rw [Shape.rowMajor_val_four, Shape.rowMajor_val_three]
  rfl

/-- So a block of a merged slab is the block of its head. -/
theorem slabBlock_merge (x : Heads.Idx → EReal) (hc : Heads.ShapeCasts Slabs) (b : Fin 8) (h : Fin 16) (n : Fin 32) :
    slabBlock (shapeCast Slabs x hc) (⟨b.val * 16 + h.val, by have := b.isLt; have := h.isLt; omega⟩ : Fin 128) n = headBlock x b h n := by
  funext r e
  exact merge_apply x hc b h _ e

/-- Block-diagonal attention commutes with the re-layout: computed on the merged arrays and split again, it is the
    function on the [8, 16, 4096, 128] arrays. -/
theorem onSlabs_reshape (q k v : Heads.Idx → EReal) (hc : Heads.ShapeCasts Slabs) (hc' : Slabs.ShapeCasts Heads) :
    shapeCast Heads (onSlabs (shapeCast Slabs q hc) (shapeCast Slabs k hc) (shapeCast Slabs v hc)) hc' = onHeads q k v := by
  funext i
  obtain ⟨b, h, l, d, rfl⟩ : ∃ (b : Fin 8) (h : Fin 16) (l : Fin 4096) (d : Fin 128), i = ix4 b h l d :=
    ⟨i 0, i 1, i 2, i 3, eq_ix4 i⟩
  refine (shapeCast_apply _ hc' (ix4 b h l d)
    (ix3 (⟨b.val * 16 + h.val, by have := b.isLt; have := h.isLt; omega⟩ : Fin 128) l d) ?_).trans ?_
  · rw [Shape.rowMajor_val_four, Shape.rowMajor_val_three]
    rfl
  · show onSlabsAt _ _ _ _ _ _ = onHeadsAt q k v b h l d
    unfold onSlabsAt onHeadsAt
    rw [slabBlock_merge q hc b h, slabBlock_merge k hc b h, slabBlock_merge v hc b h]

end Cert.LocalAttention

end
-- ==== Proof.Block.lean ====
/-
  What the kernel body stores for one grid point, read at one element.

  The body loads three [32, 256, 128] blocks (32 merged batch-head slabs, 256 consecutive rows = two attention blocks,
  128 features), re-tiles each row-major to [64, 128, 128] — slab `a`, row `r` becomes tile `2 a + r / 128`, row
  `r mod 128` — and on every tile computes scores, row maxima, exponentials, row sums, quotients and the product with
  the values; the result is re-tiled back. Read at (a, r, d) this is the attention of the attention block that holds
  row `r` of slab `a` (`stored_apply`).
-/
import proofs.«123131_j27032524161234_2_alg».proof.Proof.Gen.KernelIdeal.Skeleton
import proofs.«123131_j27032524161234_2_alg».proof.Proof.Attention
import Idealize.ShloMosaic.PureOps.Ideal.Laws
import Idealize.ShloMosaic.Lib.Pipeline.Value
import Idealize.ShloMosaic.Lib.ValueIdx

noncomputable section

open scoped BigOperators

namespace Cert.KernelIdeal.Tile

open Cert.KernelIdeal Cert.KernelIdeal.Gen Cert.LocalAttention
open Idealize.ShloMosaic Idealize.ShloMosaic.ValueIdx

/-! ## The steps of the body on [64, 128, 128] tiles -/

/-- Scores: tile by tile, queries against keys, contracted over the feature axis, into a zero accumulator. -/
def scores (y0 y1 : FVec Ideal S64x128x128 .f32) : FVec Ideal S64x128x128 .f32 :=
  matmul dot_S64x128x128_S64x128x128_S64x128x128_2_2_1_1_0_0 (some .fp32) y0 y1 (constant S64x128x128 .f32 0x00000000#32)

/-- Row maxima of a tile stack, from −∞. -/
def rowMaxes (s : FVec Ideal S64x128x128 .f32) : FVec Ideal S64x128 .f32 :=
  multiReduction .maximumf [2] S64x128 s 0xFF800000#32 reduces_S64x128x128_S64x128 (.inl rfl) rfl

/-- Row sums of a tile stack, from 0. -/
def rowSums (p : FVec Ideal S64x128x128 .f32) : FVec Ideal S64x128 .f32 :=
  multiReduction .add [2] S64x128 p 0x00000000#32 reduces_S64x128x128_S64x128 (.inl rfl) rfl

/-- A per-row value repeated along the row: [64, 128] → [64, 128, 1] → [64, 128, 128]. -/
def alongRow (x : FVec Ideal S64x128 .f32) : FVec Ideal S64x128x128 .f32 :=
  broadcastTo S64x128x128 (shapeCast S64x128x1 x shapeCasts_S64x128_S64x128x1) broadcasts_S64x128x1_S64x128x128

/-- Unnormalised weights: exp (score − row maximum). -/
def weights (s : FVec Ideal S64x128x128 .f32) : FVec Ideal S64x128x128 .f32 :=
  exp (subf s (alongRow (rowMaxes s)))

/-- Normalised weights: each divided by its row's sum. -/
def normalised (p : FVec Ideal S64x128x128 .f32) : FVec Ideal S64x128x128 .f32 :=
  divf p (alongRow (rowSums p))

/-- The whole tile computation. -/
def tiles (y0 y1 y2 : FVec Ideal S64x128x128 .f32) : FVec Ideal S64x128x128 .f32 :=
  matmul dot_S64x128x128_S64x128x128_S64x128x128_2_1_1_2_0_0 (some .fp32) (normalised (weights (scores y0 y1))) y2
    (constant S64x128x128 .f32 0x00000000#32)

/-- A loaded block re-tiled. -/
def retile (x : Vec Ideal S32x256x128 .f32) : FVec Ideal S64x128x128 .f32 :=
  shapeCast S64x128x128 (shapeCast S32x256x128 x shapeCasts_S32x256x128_S32x256x128) shapeCasts_S32x256x128_S64x128x128

/-- The stored value is the tile computation of the three re-tiled blocks, re-tiled back. -/
theorem stored_eq (x0 x1 x2 : Vec Ideal S32x256x128 .f32) :
    k0_pay1 (F := Ideal) x0 x1 x2
      = shapeCast S32x256x128 (tiles (retile x0) (retile x1) (retile x2)) shapeCasts_S64x128x128_S32x256x128 := rfl

/-! ## Each step at an index -/

/-- The row-reduction's source index over (g, w) at lane u is (g, w, u). -/
theorem lane_idx (g : Fin 64) (w u : Fin 128) :
    reduces_S64x128x128_S64x128.lift (ix2 g w) u = ix3 g w u :=
  funext fun a => Fin.ext (by match a with | ⟨0, _⟩ => rfl | ⟨1, _⟩ => rfl | ⟨2, _⟩ => rfl)

theorem rowMaxes_apply (s : FVec Ideal S64x128x128 .f32) (g : Fin 64) (w : Fin 128) :
    rowMaxes s (ix2 g w) = rowMax fun u => s (ix3 g w u) := by
  unfold rowMaxes rowMax
  refine (Ideal.multiReduction_maximumf_single s 0xFF800000#32 reduces_S64x128x128_S64x128 (.inl rfl) rfl (ix2 g w)).trans ?_
  exact congrArg (fun f : Fin 128 → EReal => (Finset.univ : Finset (Fin 128)).fold max (Ideal.ofBits .f32 0xFF800000#32) f)
    (funext fun u => congrArg s (lane_idx g w u))

theorem rowSums_apply (p : FVec Ideal S64x128x128 .f32) (g : Fin 64) (w : Fin 128) :
    rowSums p (ix2 g w) = ∑ u : Fin 128, p (ix3 g w u) := by
  unfold rowSums
  refine (Ideal.multiReduction_add_single p 0x00000000#32 reduces_S64x128x128_S64x128 (.inl rfl) rfl (ix2 g w)).trans ?_
  exact Finset.sum_congr rfl fun u _ => congrArg p (lane_idx g w u)

theorem alongRow_apply (x : FVec Ideal S64x128 .f32) (g : Fin 64) (w u : Fin 128) :
    alongRow x (ix3 g w u) = x (ix2 g w) := by
  unfold alongRow
  refine (broadcastTo_apply _ broadcasts_S64x128x1_S64x128x128 (ix3 g w u) (ix3 g w (0 : Fin 1)) ?_).trans ?_
  · intro a
    match a with
    | ⟨0, _⟩ => rfl
    | ⟨1, _⟩ => rfl
    | ⟨2, _⟩ => rfl
  · refine shapeCast_apply x shapeCasts_S64x128_S64x128x1 (ix3 g w (0 : Fin 1)) (ix2 g w) ?_
    rw [Shape.rowMajor_val_two, Shape.rowMajor_val_three]
    show g.val * 128 + w.val = (g.val * 128 + w.val) * 1 + 0
    omega

/-- The two contractions' operand indices, coordinate by coordinate: the tile axis is shared, the scores contract
    the feature axis of both operands, the output contracts the weights' column axis with the values' row axis. -/
theorem qk_lhs0 (i : S64x128x128.Idx) (q : dot_S64x128x128_S64x128x128_S64x128x128_2_2_1_1_0_0.contr.Idx) :
    (dot_S64x128x128_S64x128x128_S64x128x128_2_2_1_1_0_0.lhsIdx i q 0).val = (i 0).val := by
  unfold DotDims.lhsIdx
  rw [dif_pos (show (0 : Fin S64x128x128.rank) ∈ dot_S64x128x128_S64x128x128_S64x128x128_2_2_1_1_0_0.lhsBatch by decide)]
  rfl
theorem qk_lhs1 (i : S64x128x128.Idx) (q : dot_S64x128x128_S64x128x128_S64x128x128_2_2_1_1_0_0.contr.Idx) :
    (dot_S64x128x128_S64x128x128_S64x128x128_2_2_1_1_0_0.lhsIdx i q 1).val = (i 1).val := by
  unfold DotDims.lhsIdx
  rw [dif_neg (show ¬(1 : Fin S64x128x128.rank) ∈ dot_S64x128x128_S64x128x128_S64x128x128_2_2_1_1_0_0.lhsBatch by decide), dif_pos (show (1 : Fin S64x128x128.rank) ∈ dot_S64x128x128_S64x128x128_S64x128x128_2_2_1_1_0_0.lhsNonContracting by decide)]
  rfl
theorem qk_lhs2 (i : S64x128x128.Idx) (q : dot_S64x128x128_S64x128x128_S64x128x128_2_2_1_1_0_0.contr.Idx) :
    (dot_S64x128x128_S64x128x128_S64x128x128_2_2_1_1_0_0.lhsIdx i q 2).val = (q ⟨0, by decide⟩).val :=
  dot_S64x128x128_S64x128x128_S64x128x128_2_2_1_1_0_0.lhsIdx_val_of_single rfl i q
theorem qk_rhs0 (i : S64x128x128.Idx) (q : dot_S64x128x128_S64x128x128_S64x128x128_2_2_1_1_0_0.contr.Idx) :
    (dot_S64x128x128_S64x128x128_S64x128x128_2_2_1_1_0_0.rhsIdx i q 0).val = (i 0).val := by
  unfold DotDims.rhsIdx
  rw [dif_pos (show (0 : Fin S64x128x128.rank) ∈ dot_S64x128x128_S64x128x128_S64x128x128_2_2_1_1_0_0.rhsBatch by decide)]
  rfl
theorem qk_rhs1 (i : S64x128x128.Idx) (q : dot_S64x128x128_S64x128x128_S64x128x128_2_2_1_1_0_0.contr.Idx) :
    (dot_S64x128x128_S64x128x128_S64x128x128_2_2_1_1_0_0.rhsIdx i q 1).val = (i 2).val := by
  unfold DotDims.rhsIdx
  rw [dif_neg (show ¬(1 : Fin S64x128x128.rank) ∈ dot_S64x128x128_S64x128x128_S64x128x128_2_2_1_1_0_0.rhsBatch by decide), dif_pos (show (1 : Fin S64x128x128.rank) ∈ dot_S64x128x128_S64x128x128_S64x128x128_2_2_1_1_0_0.rhsNonContracting by decide)]
  rfl
theorem qk_rhs2 (i : S64x128x128.Idx) (q : dot_S64x128x128_S64x128x128_S64x128x128_2_2_1_1_0_0.contr.Idx) :
    (dot_S64x128x128_S64x128x128_S64x128x128_2_2_1_1_0_0.rhsIdx i q 2).val = (q ⟨0, by decide⟩).val :=
  dot_S64x128x128_S64x128x128_S64x128x128_2_2_1_1_0_0.rhsIdx_val_of_single rfl i q
theorem pv_lhs0 (i : S64x128x128.Idx) (q : dot_S64x128x128_S64x128x128_S64x128x128_2_1_1_2_0_0.contr.Idx) :
    (dot_S64x128x128_S64x128x128_S64x128x128_2_1_1_2_0_0.lhsIdx i q 0).val = (i 0).val := by
  unfold DotDims.lhsIdx
  rw [dif_pos (show (0 : Fin S64x128x128.rank) ∈ dot_S64x128x128_S64x128x128_S64x128x128_2_1_1_2_0_0.lhsBatch by decide)]
  rfl
theorem pv_lhs1 (i : S64x128x128.Idx) (q : dot_S64x128x128_S64x128x128_S64x128x128_2_1_1_2_0_0.contr.Idx) :
    (dot_S64x128x128_S64x128x128_S64x128x128_2_1_1_2_0_0.lhsIdx i q 1).val = (i 1).val := by
  unfold DotDims.lhsIdx
  rw [dif_neg (show ¬(1 : Fin S64x128x128.rank) ∈ dot_S64x128x128_S64x128x128_S64x128x128_2_1_1_2_0_0.lhsBatch by decide), dif_pos (show (1 : Fin S64x128x128.rank) ∈ dot_S64x128x128_S64x128x128_S64x128x128_2_1_1_2_0_0.lhsNonContracting by decide)]
  rfl
theorem pv_lhs2 (i : S64x128x128.Idx) (q : dot_S64x128x128_S64x128x128_S64x128x128_2_1_1_2_0_0.contr.Idx) :
    (dot_S64x128x128_S64x128x128_S64x128x128_2_1_1_2_0_0.lhsIdx i q 2).val = (q ⟨0, by decide⟩).val :=
  dot_S64x128x128_S64x128x128_S64x128x128_2_1_1_2_0_0.lhsIdx_val_of_single rfl i q
theorem pv_rhs0 (i : S64x128x128.Idx) (q : dot_S64x128x128_S64x128x128_S64x128x128_2_1_1_2_0_0.contr.Idx) :
    (dot_S64x128x128_S64x128x128_S64x128x128_2_1_1_2_0_0.rhsIdx i q 0).val = (i 0).val := by
  unfold DotDims.rhsIdx
  rw [dif_pos (show (0 : Fin S64x128x128.rank) ∈ dot_S64x128x128_S64x128x128_S64x128x128_2_1_1_2_0_0.rhsBatch by decide)]
  rfl
theorem pv_rhs1 (i : S64x128x128.Idx) (q : dot_S64x128x128_S64x128x128_S64x128x128_2_1_1_2_0_0.contr.Idx) :
    (dot_S64x128x128_S64x128x128_S64x128x128_2_1_1_2_0_0.rhsIdx i q 1).val = (q ⟨0, by decide⟩).val :=
  dot_S64x128x128_S64x128x128_S64x128x128_2_1_1_2_0_0.rhsIdx_val_of_single rfl i q
theorem pv_rhs2 (i : S64x128x128.Idx) (q : dot_S64x128x128_S64x128x128_S64x128x128_2_1_1_2_0_0.contr.Idx) :
    (dot_S64x128x128_S64x128x128_S64x128x128_2_1_1_2_0_0.rhsIdx i q 2).val = (i 2).val := by
  unfold DotDims.rhsIdx
  rw [dif_neg (show ¬(2 : Fin S64x128x128.rank) ∈ dot_S64x128x128_S64x128x128_S64x128x128_2_1_1_2_0_0.rhsBatch by decide), dif_pos (show (2 : Fin S64x128x128.rank) ∈ dot_S64x128x128_S64x128x128_S64x128x128_2_1_1_2_0_0.rhsNonContracting by decide)]
  rfl

theorem scores_apply (y0 y1 : FVec Ideal S64x128x128 .f32) (g : Fin 64) (w u : Fin 128) :
    scores y0 y1 (ix3 g w u) = score (fun w e => y0 (ix3 g w e)) (fun u e => y1 (ix3 g u e)) w u := by
  unfold scores score
  refine (Ideal.matmul_constant_zero_apply _ _ y0 y1 (ix3 g w u)).trans ?_
  rw [← Equiv.sum_comp (contrEquiv1 dot_S64x128x128_S64x128x128_S64x128x128_2_2_1_1_0_0 128 rfl rfl).symm]
  refine Finset.sum_congr rfl fun e _ => ?_
  have hk := contrEquiv1_symm_val dot_S64x128x128_S64x128x128_S64x128x128_2_2_1_1_0_0 128 rfl rfl e
  have el : dot_S64x128x128_S64x128x128_S64x128x128_2_2_1_1_0_0.lhsIdx (ix3 g w u)
      ((contrEquiv1 dot_S64x128x128_S64x128x128_S64x128x128_2_2_1_1_0_0 128 rfl rfl).symm e) = ix3 g w e :=
    funext fun a => Fin.ext (by
      match a with
      | ⟨0, _⟩ => exact qk_lhs0 _ _
      | ⟨1, _⟩ => exact qk_lhs1 _ _
      | ⟨2, _⟩ => exact (qk_lhs2 _ _).trans hk)
  have er : dot_S64x128x128_S64x128x128_S64x128x128_2_2_1_1_0_0.rhsIdx (ix3 g w u)
      ((contrEquiv1 dot_S64x128x128_S64x128x128_S64x128x128_2_2_1_1_0_0 128 rfl rfl).symm e) = ix3 g u e :=
    funext fun a => Fin.ext (by
      match a with
      | ⟨0, _⟩ => exact qk_rhs0 _ _
      | ⟨1, _⟩ => exact qk_rhs1 _ _
      | ⟨2, _⟩ => exact (qk_rhs2 _ _).trans hk)
  rw [el, er]

theorem weights_apply (s : FVec Ideal S64x128x128 .f32) (g : Fin 64) (w u : Fin 128) :
    weights s (ix3 g w u) = Ideal.exp (s (ix3 g w u) - rowMax fun u' => s (ix3 g w u')) := by
  show Ideal.exp (s (ix3 g w u) - alongRow (rowMaxes s) (ix3 g w u)) = _
  rw [alongRow_apply, rowMaxes_apply]

theorem normalised_apply (p : FVec Ideal S64x128x128 .f32) (g : Fin 64) (w u : Fin 128) :
    normalised p (ix3 g w u) = Ideal.div (p (ix3 g w u)) (∑ u' : Fin 128, p (ix3 g w u')) := by
  show Ideal.div (p (ix3 g w u)) (alongRow (rowSums p) (ix3 g w u)) = _
  rw [alongRow_apply, rowSums_apply]

/-- One tile's result: the attention of the tile's three slabs. -/
theorem tiles_apply (y0 y1 y2 : FVec Ideal S64x128x128 .f32) (g : Fin 64) (w d : Fin 128) :
    tiles y0 y1 y2 (ix3 g w d)
      = attend (fun w e => y0 (ix3 g w e)) (fun u e => y1 (ix3 g u e)) (fun u d => y2 (ix3 g u d)) w d := by
  unfold tiles attend
  refine (Ideal.matmul_constant_zero_apply _ _ _ y2 (ix3 g w d)).trans ?_
  rw [← Equiv.sum_comp (contrEquiv1 dot_S64x128x128_S64x128x128_S64x128x128_2_1_1_2_0_0 128 rfl rfl).symm]
  refine Finset.sum_congr rfl fun u _ => ?_
  have hk := contrEquiv1_symm_val dot_S64x128x128_S64x128x128_S64x128x128_2_1_1_2_0_0 128 rfl rfl u
  have el : dot_S64x128x128_S64x128x128_S64x128x128_2_1_1_2_0_0.lhsIdx (ix3 g w d)
      ((contrEquiv1 dot_S64x128x128_S64x128x128_S64x128x128_2_1_1_2_0_0 128 rfl rfl).symm u) = ix3 g w u :=
    funext fun a => Fin.ext (by
      match a with
      | ⟨0, _⟩ => exact pv_lhs0 _ _
      | ⟨1, _⟩ => exact pv_lhs1 _ _
      | ⟨2, _⟩ => exact (pv_lhs2 _ _).trans hk)
  have er : dot_S64x128x128_S64x128x128_S64x128x128_2_1_1_2_0_0.rhsIdx (ix3 g w d)
      ((contrEquiv1 dot_S64x128x128_S64x128x128_S64x128x128_2_1_1_2_0_0 128 rfl rfl).symm u) = ix3 g u d :=
    funext fun a => Fin.ext (by
      match a with
      | ⟨0, _⟩ => exact pv_rhs0 _ _
      | ⟨1, _⟩ => exact (pv_rhs1 _ _).trans hk
      | ⟨2, _⟩ => exact pv_rhs2 _ _)
  rw [el, er, normalised_apply]
  have hw : ∀ u' : Fin 128, weights (scores y0 y1) (ix3 g w u')
      = weight (fun w e => y0 (ix3 g w e)) (fun u e => y1 (ix3 g u e)) w u' := fun u' => by
    rw [weights_apply, scores_apply]
    unfold weight
    exact congrArg (fun f : Fin 128 → EReal => Ideal.exp (score _ _ w u' - rowMax f))
      (funext fun u'' => scores_apply y0 y1 g w u'')
  rw [hw u, Finset.sum_congr rfl fun u' _ => hw u']

/-! ## The re-tilings at an index -/

/-- Tile `2 a + c`, row `w` of a re-tiled block is row `128 c + w` of slab `a`. -/
theorem retile_apply (x : Vec Ideal S32x256x128 .f32) (a : Fin 32) (c : Fin 2) (w e : Fin 128) :
    retile x (ix3 (⟨a.val * 2 + c.val, by have := a.isLt; have := c.isLt; omega⟩ : Fin 64) w e)
      = x (ix3 a (⟨c.val * 128 + w.val, by have := c.isLt; have := w.isLt; omega⟩ : Fin 256) e) := by
  unfold retile
  rw [shapeCast_self]
  refine shapeCast_apply x shapeCasts_S32x256x128_S64x128x128 _ _ ?_
  rw [Shape.rowMajor_val_three, Shape.rowMajor_val_three]
  show (a.val * 256 + (c.val * 128 + w.val)) * 128 + e.val = ((a.val * 2 + c.val) * 128 + w.val) * 128 + e.val
  have := c.isLt
  omega

/-- THE STORED VALUE AT AN ELEMENT: at slab `a`, row `r`, feature `d` of the block, the attention of the 128 rows
    around `r` (those of the same half of the 256) of slab `a` of the three loaded blocks. -/
theorem stored_apply (x0 x1 x2 : Vec Ideal S32x256x128 .f32) (a : Fin 32) (r : Fin 256) (d : Fin 128) :
    k0_pay1 (F := Ideal) x0 x1 x2 (ix3 a r d)
      = attend (fun w e => x0 (ix3 a (⟨r.val / 128 * 128 + w.val, by have := r.isLt; have := w.isLt; omega⟩ : Fin 256) e))
          (fun u e => x1 (ix3 a (⟨r.val / 128 * 128 + u.val, by have := r.isLt; have := u.isLt; omega⟩ : Fin 256) e))
          (fun u d' => x2 (ix3 a (⟨r.val / 128 * 128 + u.val, by have := r.isLt; have := u.isLt; omega⟩ : Fin 256) d'))
          (⟨r.val % 128, Nat.mod_lt _ (by decide)⟩ : Fin 128) d := by
  rw [stored_eq]
  have hr := r.isLt
  refine (shapeCast_apply _ shapeCasts_S64x128x128_S32x256x128 (ix3 a r d)
    (ix3 (⟨a.val * 2 + (⟨r.val / 128, by omega⟩ : Fin 2).val, by have := a.isLt; show a.val * 2 + r.val / 128 < 64; omega⟩ : Fin 64)
      (⟨r.val % 128, Nat.mod_lt _ (by decide)⟩ : Fin 128) d) ?_).trans ?_
  · rw [Shape.rowMajor_val_three, Shape.rowMajor_val_three]
    show ((a.val * 2 + r.val / 128) * 128 + r.val % 128) * 128 + d.val = (a.val * 256 + r.val) * 128 + d.val
    omega
  · rw [tiles_apply]
    have h0 : ∀ (x : Vec Ideal S32x256x128 .f32) (w e : Fin 128),
        retile x (ix3 (⟨a.val * 2 + (⟨r.val / 128, by omega⟩ : Fin 2).val, by have := a.isLt; show a.val * 2 + r.val / 128 < 64; omega⟩ : Fin 64) w e)
          = x (ix3 a (⟨r.val / 128 * 128 + w.val, by have := w.isLt; omega⟩ : Fin 256) e) := fun x w e =>
      retile_apply x a ⟨r.val / 128, by omega⟩ w e
    simp only [h0]

end Cert.KernelIdeal.Tile

end
-- ==== Proof.KernelValue.lean ====
/-
  What the kernel's program leaves in its result array.

  The host first merges the batch and head axes of each argument ([8, 16, 4096, 128] → [128, 4096, 128]). The grid has
  4 × 16 points; point (g, n) stages, of each of the three merged arrays, slabs 32 g … 32 g + 31 and rows
  256 n … 256 n + 255, and writes back the same box of the output. Every output box is the restriction of one
  function of the three merged arrays — block-diagonal attention, `onSlabs` — because a box of 256 rows holds two whole
  attention blocks (`flushed_eq`); the boxes cover the output (`covered`), so the output array ends at that function
  (`final`). The host then splits the merged axis again, which gives attention on the [8, 16, 4096, 128] arrays (`run`).
-/
import proofs.«123131_j27032524161234_2_alg».proof.Proof.Gen.KernelIdeal.Frame
import proofs.«123131_j27032524161234_2_alg».proof.Proof.Block
import proofs.«123131_j27032524161234_2_alg».proof.Proof.Attention
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen Cert.KernelIdeal.Tile Cert.LocalAttention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The four windows move together: at every grid point each input's box is the output's box, the feature axis is
    never split, and the box indices stay in 4 × 16. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 3) = win0_3.index t (0 : Fin 3) ∧ win0_2.index t (1 : Fin 3) = win0_3.index t (1 : Fin 3)
    ∧ win0_2.index t (2 : Fin 3) = 0
    ∧ win0_3.index t (2 : Fin 3) = 0 ∧ win0_3.index t (0 : Fin 3) < 4 ∧ win0_3.index t (1 : Fin 3) < 16 :=
  (by decide +kernel : ∀ t : Fin grid0.N, _)

/-- Every box of the 4 × 16 is some point's. -/
theorem idx_onto : ∀ (q0 : Fin 4) (q1 : Fin 16), ∃ t : Fin cfg0.N, win0_3.index t = ![q0.val, q1.val, 0] :=
  (by decide +kernel : ∀ (q0 : Fin 4) (q1 : Fin 16), ∃ t : Fin grid0.N, win0_3.index t = ![q0.val, q1.val, 0])

/-! ## An input box read at an element -/

theorem queries_box (c : Dev nD) (t : Fin cfg0.N) (x : S32x256x128.Idx) (k : S128x4096x128.Idx)
    (h0 : (k 0).val = win0_0.index t (0 : Fin 3) * 32 + (x 0).val)
    (h1 : (k 1).val = win0_0.index t (1 : Fin 3) * 256 + (x 1).val)
    (h2 : (k 2).val = win0_0.index t (2 : Fin 3) * 128 + (x 2).val) :
    (iblk m c 0 t : Vec Ideal S32x256x128 .f32) x = (V m c main_v0 : S128x4096x128.Idx → EReal) k := by
  unfold iblk
  rw [View.read_apply]
  show V m c main_v0 _ = V m c main_v0 k
  refine congrArg (V m c main_v0) (funext fun a => Fin.ext ?_)
  match a with
  | ⟨0, _⟩ => show win0_0.index t (0 : Fin 3) * 32 + 1 * (x 0).val = (k 0).val; omega
  | ⟨1, _⟩ => show win0_0.index t (1 : Fin 3) * 256 + 1 * (x 1).val = (k 1).val; omega
  | ⟨2, _⟩ => show win0_0.index t (2 : Fin 3) * 128 + 1 * (x 2).val = (k 2).val; omega

theorem keys_box (c : Dev nD) (t : Fin cfg0.N) (x : S32x256x128.Idx) (k : S128x4096x128.Idx)
    (h0 : (k 0).val = win0_1.index t (0 : Fin 3) * 32 + (x 0).val)
    (h1 : (k 1).val = win0_1.index t (1 : Fin 3) * 256 + (x 1).val)
    (h2 : (k 2).val = win0_1.index t (2 : Fin 3) * 128 + (x 2).val) :
    (iblk m c 1 t : Vec Ideal S32x256x128 .f32) x = (V m c main_v1 : S128x4096x128.Idx → EReal) k := by
  unfold iblk
  rw [View.read_apply]
  show V m c main_v1 _ = V m c main_v1 k
  refine congrArg (V m c main_v1) (funext fun a => Fin.ext ?_)
  match a with
  | ⟨0, _⟩ => show win0_1.index t (0 : Fin 3) * 32 + 1 * (x 0).val = (k 0).val; omega
  | ⟨1, _⟩ => show win0_1.index t (1 : Fin 3) * 256 + 1 * (x 1).val = (k 1).val; omega
  | ⟨2, _⟩ => show win0_1.index t (2 : Fin 3) * 128 + 1 * (x 2).val = (k 2).val; omega

theorem values_box (c : Dev nD) (t : Fin cfg0.N) (x : S32x256x128.Idx) (k : S128x4096x128.Idx)
    (h0 : (k 0).val = win0_2.index t (0 : Fin 3) * 32 + (x 0).val)
    (h1 : (k 1).val = win0_2.index t (1 : Fin 3) * 256 + (x 1).val)
    (h2 : (k 2).val = win0_2.index t (2 : Fin 3) * 128 + (x 2).val) :
    (iblk m c 2 t : Vec Ideal S32x256x128 .f32) x = (V m c main_v2 : S128x4096x128.Idx → EReal) k := by
  unfold iblk
  rw [View.read_apply]
  show V m c main_v2 _ = V m c main_v2 k
  refine congrArg (V m c main_v2) (funext fun a => Fin.ext ?_)
  match a with
  | ⟨0, _⟩ => show win0_2.index t (0 : Fin 3) * 32 + 1 * (x 0).val = (k 0).val; omega
  | ⟨1, _⟩ => show win0_2.index t (1 : Fin 3) * 256 + 1 * (x 1).val = (k 1).val; omega
  | ⟨2, _⟩ => show win0_2.index t (2 : Fin 3) * 128 + 1 * (x 2).val = (k 2).val; omega

/-! ## What a point stores, as the whole-array function at the element's place in the output -/

/-- The value stored at local position `y` of point `t`'s box is block-diagonal attention of the three merged arrays
    at the output index `j` that `y` lands on: the 128 rows around `y`'s row inside the box are the attention block
    of `j`'s row, since 256 is a multiple of 128. -/
theorem stored_at (c : Dev nD) (t : Fin cfg0.N) (y : S32x256x128.Idx) (j : S128x4096x128.Idx)
    (hj0 : (j 0).val = win0_3.index t (0 : Fin 3) * 32 + (y 0).val)
    (hj1 : (j 1).val = win0_3.index t (1 : Fin 3) * 256 + (y 1).val)
    (hj2 : (j 2).val = win0_3.index t (2 : Fin 3) * 128 + (y 2).val) :
    k0_pay1 (F := Ideal) (iblk m c 0 t) (iblk m c 1 t) (iblk m c 2 t) y
      = onSlabs (V m c main_v0) (V m c main_v1) (V m c main_v2) j := by
  obtain ⟨e00, e01, e02, e10, e11, e12, e20, e21, e22, e32, b0, b1⟩ := idx_facts t
  obtain ⟨a, r, d, rfl⟩ : ∃ (a : Fin 32) (r : Fin 256) (d : Fin 128), y = ix3 a r d := ⟨y 0, y 1, y 2, eq_ix3 y⟩
  have ha := a.isLt; have hr := r.isLt; have hd := d.isLt
  have hj0' : (j 0).val = win0_3.index t (0 : Fin 3) * 32 + a.val := hj0
  have hj1' : (j 1).val = win0_3.index t (1 : Fin 3) * 256 + r.val := hj1
  have hj2' : (j 2).val = win0_3.index t (2 : Fin 3) * 128 + d.val := hj2
  refine (stored_apply (iblk m c 0 t) (iblk m c 1 t) (iblk m c 2 t) a r d).trans ?_
  unfold onSlabs onSlabsAt
  refine attend_congr ?_ ?_ ?_ (Fin.ext ?_) (Fin.ext ?_)
  · funext w e
    have hw := w.isLt
    refine queries_box m c t _ _ ?_ ?_ ?_
    · show (j 0).val = win0_0.index t (0 : Fin 3) * 32 + a.val; omega
    · show (j 1).val / 128 * 128 + w.val = win0_0.index t (1 : Fin 3) * 256 + (r.val / 128 * 128 + w.val); omega
    · show e.val = win0_0.index t (2 : Fin 3) * 128 + e.val; omega
  · funext u e
    have hu := u.isLt
    refine keys_box m c t _ _ ?_ ?_ ?_
    · show (j 0).val = win0_1.index t (0 : Fin 3) * 32 + a.val; omega
    · show (j 1).val / 128 * 128 + u.val = win0_1.index t (1 : Fin 3) * 256 + (r.val / 128 * 128 + u.val); omega
    · show e.val = win0_1.index t (2 : Fin 3) * 128 + e.val; omega
  · funext u e
    have hu := u.isLt
    refine values_box m c t _ _ ?_ ?_ ?_
    · show (j 0).val = win0_2.index t (0 : Fin 3) * 32 + a.val; omega
    · show (j 1).val / 128 * 128 + u.val = win0_2.index t (1 : Fin 3) * 256 + (r.val / 128 * 128 + u.val); omega
    · show e.val = win0_2.index t (2 : Fin 3) * 128 + e.val; omega
  · show r.val % 128 = (j 1).val % 128; omega
  · show d.val = (j 2).val; omega

/-- WHAT POINT `t` WRITES BACK is its box of block-diagonal attention of the three merged arrays. -/
theorem flushed_eq (c : Dev nD) (t : Fin cfg0.N) :
    (dats m 0 c).flushed 3 t = ((cfg0.win 3).blk t).view.read (Elt Ideal)
      (onSlabs (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S32x256x128) hz]
  funext y
  show k0_pay1 (F := Ideal) (iblk m c 0 t) (iblk m c 1 t) (iblk m c 2 t) y
    = onSlabs (V m c main_v0) (V m c main_v1) (V m c main_v2) (((cfg0.win 3).blk t).view.emb y)
  refine stored_at m c t y _ ?_ ?_ ?_
  · show win0_3.index t (0 : Fin 3) * 32 + 1 * (y 0).val = _; omega
  · show win0_3.index t (1 : Fin 3) * 256 + 1 * (y 1).val = _; omega
  · show win0_3.index t (2 : Fin 3) * 128 + 1 * (y 2).val = _; omega

/-! ## The boxes cover the output -/

theorem mem_box (t : Fin cfg0.N) (i : S128x4096x128.Idx) :
    i ∈ ((cfg0.win 3).blk t).view.set ↔ ∀ a : Fin 3, win0_3.index t a * S32x256x128.size a ≤ (i a).val
      ∧ (i a).val < win0_3.index t a * S32x256x128.size a + S32x256x128.size a := by
  show i ∈ ((View.whole main_v3).slice (win0_3.rect t)).set ↔ _
  rw [View.set_slice_whole, Rect.mem_set_unit]
  exact Iff.rfl

/-- Slab `s`, row `l` lies in the box of point (s / 32, l / 256). -/
theorem covered (i : S128x4096x128.Idx) :
    ∃ t : Fin cfg0.N, (cfg0.win 3).flush t = true ∧ i ∈ ((cfg0.win 3).blk t).view.set := by
  have hi0 : (i 0).val < 128 := (i 0).isLt
  have hi1 : (i 1).val < 4096 := (i 1).isLt
  have hi2 : (i 2).val < 128 := (i 2).isLt
  obtain ⟨t, ht⟩ := idx_onto ⟨(i 0).val / 32, by omega⟩ ⟨(i 1).val / 256, by omega⟩
  have q0 : win0_3.index t (0 : Fin 3) = (i 0).val / 32 := congrFun ht 0
  have q1 : win0_3.index t (1 : Fin 3) = (i 1).val / 256 := congrFun ht 1
  have q2 : win0_3.index t (2 : Fin 3) = 0 := congrFun ht 2
  refine ⟨t, flush0_3 t, ?_⟩
  rw [mem_box]
  intro a
  match a with
  | ⟨0, _⟩ => show win0_3.index t (0 : Fin 3) * 32 ≤ (i 0).val ∧ (i 0).val < win0_3.index t (0 : Fin 3) * 32 + 32; omega
  | ⟨1, _⟩ => show win0_3.index t (1 : Fin 3) * 256 ≤ (i 1).val ∧ (i 1).val < win0_3.index t (1 : Fin 3) * 256 + 256; omega
  | ⟨2, _⟩ => show win0_3.index t (2 : Fin 3) * 128 ≤ (i 2).val ∧ (i 2).val < win0_3.index t (2 : Fin 3) * 128 + 128; omega

/-- THE OUTPUT ARRAY after the region: block-diagonal attention of the three merged arrays. -/
theorem final (c : Dev nD) :
    (dats m 0 c).arrAt 3 cfg0.N = onSlabs (V m c main_v0) (V m c main_v1) (V m c main_v2) :=
  (dats m 0 c).arrAt_eq_of_cover 3 _ (fun t _ => flushed_eq m c t) covered

/-! ## The host's re-layouts around the region -/

theorem merged_queries (c : Dev nD) : (V m c main_v0 : S128x4096x128.Idx → EReal)
    = shapeCast S128x4096x128 (m ((c : Thread nD τ).loc main_arg0)) shapeCasts_S8x16x4096x128_S128x4096x128 := by
  show StableHlo.after hostOps0 (fun b => m (c, b)) (Proc.devRef .tc main_v0) = _
  after_results
  rfl

theorem merged_keys (c : Dev nD) : (V m c main_v1 : S128x4096x128.Idx → EReal)
    = shapeCast S128x4096x128 (m ((c : Thread nD τ).loc main_arg1)) shapeCasts_S8x16x4096x128_S128x4096x128 := by
  show StableHlo.after hostOps0 (fun b => m (c, b)) (Proc.devRef .tc main_v1) = _
  after_results
  rfl

theorem merged_values (c : Dev nD) : (V m c main_v2 : S128x4096x128.Idx → EReal)
    = shapeCast S128x4096x128 (m ((c : Thread nD τ).loc main_arg2)) shapeCasts_S8x16x4096x128_S128x4096x128 := by
  show StableHlo.after hostOps0 (fun b => m (c, b)) (Proc.devRef .tc main_v2) = _
  after_results
  rfl

/-- The program's result: the output array with its merged axis split again. -/
theorem result_eq (c : Dev nD) :
    Pipeline.afterTail₀ cfgs (dats m) 0 (V0 m) [hostOps1] c main_v4
      = onHeads (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = onSlabs (V m c main_v0) (V m c main_v1) (V m c main_v2) :=
    (Pipeline.withArrays_arr spec0 launch0.win.arr_inj c _ _ 3).trans (final m c)
  show shapeCast S8x16x4096x128
      (Pipeline.withArrays (cfgs 0).spec c (V0 m c) (fun w => (dats m 0 c).arrAt w (cfgs 0).N) (Proc.devRef .tc main_v3))
      shapeCasts_S128x4096x128_S8x16x4096x128 = _
  rw [e, merged_queries, merged_keys, merged_values]
  exact onSlabs_reshape _ _ _ _ _

/-- THE RUN, READ: every weakly fair execution of the program terminates with its result at block-diagonal attention
    of the three arguments, and the arguments unchanged. -/
theorem run : θ_run defs (onTc (τ := τ) (main (F := Ideal))) ⟨m, fun _ => 0, ρ⟩ fun r => ∀ c : Dev nD,
      r.2.mem ((c.tc : Thread nD τ).loc main_v4)
        = onHeads (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefValue.lean ====
/-
  The reference computes block-diagonal attention on the [8, 16, 4096, 128] arrays.

  The reference splits the sequence axis into 32 blocks of 128 rows ([8, 16, 32, 128, 128]), takes the scores of each
  block, the row maxima (once more against −∞, which changes nothing), the exponentials of the differences, their
  row sums from 0, the quotients, the product with the values, and merges the sequence axis back. Each stage is read
  at an index whose five coordinates are batch entry, head, block, row and column; the last stage is `attend` of the
  three blocks.
-/
import proofs.«123131_j27032524161234_2_alg».proof.Proof.Gen.ReferenceIdeal.Read
import proofs.«123131_j27032524161234_2_alg».proof.Proof.Attention
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Cert.LocalAttention
open Idealize.ShloMosaic Idealize.ShloMosaic.ValueIdx

variable (x0 x1 x2 : (⟨S8x16x4096x128, .f32⟩ : BufTy).Contents (Elt Ideal))

/-- Row `r` of block `n` is row `128 n + r` of the sequence. -/
theorem split_idx (b : Fin 8) (h : Fin 16) (n : Fin 32) (r e : Fin 128) :
    idx_main_v0 (ix5 b h n r e)
      = ix4 b h (⟨n.val * 128 + r.val, by have := n.isLt; have := r.isLt; omega⟩ : Fin 4096) e := by
  have hb := b.isLt; have hh := h.isLt; have hn := n.isLt; have hr := r.isLt; have he := e.isLt
  funext a
  apply Fin.ext
  match a with
  | ⟨0, _⟩ => show ((((b.val * 16 + h.val) * 32 + n.val) * 128 + r.val) * 128 + e.val) / 8388608 = b.val; omega
  | ⟨1, _⟩ => show ((((b.val * 16 + h.val) * 32 + n.val) * 128 + r.val) * 128 + e.val) / 524288 % 16 = h.val; omega
  | ⟨2, _⟩ => show ((((b.val * 16 + h.val) * 32 + n.val) * 128 + r.val) * 128 + e.val) / 128 % 4096 = n.val * 128 + r.val; omega
  | ⟨3, _⟩ => show ((((b.val * 16 + h.val) * 32 + n.val) * 128 + r.val) * 128 + e.val) % 128 = e.val; omega

theorem queries_apply (b : Fin 8) (h : Fin 16) (n : Fin 32) (r e : Fin 128) :
    val_main_v0 (F := Ideal) x0 (ix5 b h n r e) = headBlock x0 b h n r e := by
  rw [val_main_v0_apply]
  exact congrArg x0 (split_idx b h n r e)

theorem keys_apply (b : Fin 8) (h : Fin 16) (n : Fin 32) (r e : Fin 128) :
    val_main_v1 (F := Ideal) x1 (ix5 b h n r e) = headBlock x1 b h n r e := by
  rw [val_main_v1_apply]
  exact congrArg x1 (split_idx b h n r e)

theorem values_apply (b : Fin 8) (h : Fin 16) (n : Fin 32) (r e : Fin 128) :
    val_main_v2 (F := Ideal) x2 (ix5 b h n r e) = headBlock x2 b h n r e := by
  rw [val_main_v2_apply]
  exact congrArg x2 (split_idx b h n r e)

/-- The scores of block (b, h, n). -/
theorem scores_apply (b : Fin 8) (h : Fin 16) (n : Fin 32) (w u : Fin 128) :
    val_main_v3 (F := Ideal) x0 x1 (ix5 b h n w u) = score (headBlock x0 b h n) (headBlock x1 b h n) w u := by
  rw [val_main_v3_apply]
  unfold score
  refine Finset.sum_congr rfl fun e _ => ?_
  have el : lidx_main_v3 (ix5 b h n w u) e = ix5 b h n w e :=
    funext fun a => Fin.ext (by match a with | ⟨0, _⟩ => rfl | ⟨1, _⟩ => rfl | ⟨2, _⟩ => rfl | ⟨3, _⟩ => rfl | ⟨4, _⟩ => rfl)
  have er : ridx_main_v3 (ix5 b h n w u) e = ix5 b h n u e :=
    funext fun a => Fin.ext (by match a with | ⟨0, _⟩ => rfl | ⟨1, _⟩ => rfl | ⟨2, _⟩ => rfl | ⟨3, _⟩ => rfl | ⟨4, _⟩ => rfl)
  rw [el, er, queries_apply, keys_apply]

/-- The shape fact of the reference's reductions over the last axis, as the library's lemmas take it. -/
theorem dropLast : S8x16x32x128x128.Reduces [4] S8x16x32x128 := by decide

theorem column_idx (b : Fin 8) (h : Fin 16) (n : Fin 32) (w u : Fin 128) :
    dropLast.lift (ix4 b h n w) u = ix5 b h n w u :=
  funext fun a => Fin.ext (by match a with | ⟨0, _⟩ => rfl | ⟨1, _⟩ => rfl | ⟨2, _⟩ => rfl | ⟨3, _⟩ => rfl | ⟨4, _⟩ => rfl)

/-- The row maxima. -/
theorem maxima_apply (b : Fin 8) (h : Fin 16) (n : Fin 32) (w : Fin 128) :
    val_main_v4 (F := Ideal) x0 x1 (ix4 b h n w) = rowMax (score (headBlock x0 b h n) (headBlock x1 b h n) w) := by
  unfold val_main_v4 rowMax
  refine (Host.reduce_eq_fold_single (FloatOps.maximumf (F := Ideal) (φ := .f32)) (val_main_v3 (F := Ideal) x0 x1)
    (val_main_cst (F := Ideal)) reducesTo_S8x16x32x128x128_S8x16x32x128_d4 dropLast h_S_ (ix4 b h n w)).trans ?_
  exact congrArg (fun f : Fin 128 → EReal => (Finset.univ : Finset (Fin 128)).fold max (Ideal.ofBits .f32 0xFF800000#32) f)
    (funext fun u => (congrArg (val_main_v3 (F := Ideal) x0 x1) (column_idx b h n w u)).trans (scores_apply x0 x1 b h n w u))

/-- … taken once more against −∞, and laid along the row. -/
theorem maxima_along_apply (b : Fin 8) (h : Fin 16) (n : Fin 32) (w u : Fin 128) :
    val_main_v8 (F := Ideal) x0 x1 (ix5 b h n w u) = rowMax (score (headBlock x0 b h n) (headBlock x1 b h n) w) := by
  rw [val_main_v8_apply, val_main_v7_apply]
  have e : idx_main_v7 (idx_main_v8 (ix5 b h n w u)) = ix4 b h n w :=
    funext fun a => Fin.ext (by match a with | ⟨0, _⟩ => rfl | ⟨1, _⟩ => rfl | ⟨2, _⟩ => rfl | ⟨3, _⟩ => rfl)
  rw [e, val_main_v6_apply, maxima_apply]
  exact max_start_rowMax _

/-- The unnormalised weights. -/
theorem weights_apply (b : Fin 8) (h : Fin 16) (n : Fin 32) (w u : Fin 128) :
    val_main_v10 (F := Ideal) x0 x1 (ix5 b h n w u) = weight (headBlock x0 b h n) (headBlock x1 b h n) w u := by
  rw [val_main_v10_apply, val_main_v9_apply, scores_apply, maxima_along_apply]
  rfl

/-- Their row sums, laid along the row. -/
theorem sums_along_apply (b : Fin 8) (h : Fin 16) (n : Fin 32) (w u : Fin 128) :
    val_main_v13 (F := Ideal) x0 x1 (ix5 b h n w u) = ∑ u' : Fin 128, weight (headBlock x0 b h n) (headBlock x1 b h n) w u' := by
  rw [val_main_v13_apply, val_main_v12_apply]
  have e : idx_main_v12 (idx_main_v13 (ix5 b h n w u)) = ix4 b h n w :=
    funext fun a => Fin.ext (by match a with | ⟨0, _⟩ => rfl | ⟨1, _⟩ => rfl | ⟨2, _⟩ => rfl | ⟨3, _⟩ => rfl)
  rw [e, val_main_v11_apply]
  have z : val_main_cst_1 (F := Ideal) (Shape.Idx.first h_S_) = 0 := Ideal.ofBits_zero_f32
  rw [z, zero_add]
  refine Finset.sum_congr rfl fun u' _ => ?_
  have e' : idx_main_v11 (ix4 b h n w) u' = ix5 b h n w u' :=
    funext fun a => Fin.ext (by match a with | ⟨0, _⟩ => rfl | ⟨1, _⟩ => rfl | ⟨2, _⟩ => rfl | ⟨3, _⟩ => rfl | ⟨4, _⟩ => rfl)
  rw [e', weights_apply]

/-- The normalised weights. -/
theorem normalised_apply (b : Fin 8) (h : Fin 16) (n : Fin 32) (w u : Fin 128) :
    val_main_v14 (F := Ideal) x0 x1 (ix5 b h n w u)
      = Ideal.div (weight (headBlock x0 b h n) (headBlock x1 b h n) w u)
          (∑ u' : Fin 128, weight (headBlock x0 b h n) (headBlock x1 b h n) w u') := by
  rw [val_main_v14_apply, weights_apply, sums_along_apply]
  rfl

/-- The block's output. -/
theorem outputs_apply (b : Fin 8) (h : Fin 16) (n : Fin 32) (w d : Fin 128) :
    val_main_v15 (F := Ideal) x0 x1 x2 (ix5 b h n w d)
      = attend (headBlock x0 b h n) (headBlock x1 b h n) (headBlock x2 b h n) w d := by
  rw [val_main_v15_apply]
  unfold attend
  refine Finset.sum_congr rfl fun u _ => ?_
  have el : lidx_main_v15 (ix5 b h n w d) u = ix5 b h n w u :=
    funext fun a => Fin.ext (by match a with | ⟨0, _⟩ => rfl | ⟨1, _⟩ => rfl | ⟨2, _⟩ => rfl | ⟨3, _⟩ => rfl | ⟨4, _⟩ => rfl)
  have er : ridx_main_v15 (ix5 b h n w d) u = ix5 b h n u d :=
    funext fun a => Fin.ext (by match a with | ⟨0, _⟩ => rfl | ⟨1, _⟩ => rfl | ⟨2, _⟩ => rfl | ⟨3, _⟩ => rfl | ⟨4, _⟩ => rfl)
  rw [el, er, normalised_apply, values_apply]

/-- Row `l` of the sequence is row `l mod 128` of block `l / 128`. -/
theorem merge_idx (b : Fin 8) (h : Fin 16) (l : Fin 4096) (d : Fin 128) :
    idx_main_v16 (ix4 b h l d)
      = ix5 b h (⟨l.val / 128, by have := l.isLt; omega⟩ : Fin 32) (⟨l.val % 128, Nat.mod_lt _ (by decide)⟩ : Fin 128) d := by
  have hb := b.isLt; have hh := h.isLt; have hl := l.isLt; have hd := d.isLt
  funext a
  apply Fin.ext
  match a with
  | ⟨0, _⟩ => show (((b.val * 16 + h.val) * 4096 + l.val) * 128 + d.val) / 8388608 = b.val; omega
  | ⟨1, _⟩ => show (((b.val * 16 + h.val) * 4096 + l.val) * 128 + d.val) / 524288 % 16 = h.val; omega
  | ⟨2, _⟩ => show (((b.val * 16 + h.val) * 4096 + l.val) * 128 + d.val) / 16384 % 32 = l.val / 128; omega
  | ⟨3, _⟩ => show (((b.val * 16 + h.val) * 4096 + l.val) * 128 + d.val) / 128 % 128 = l.val % 128; omega
  | ⟨4, _⟩ => show (((b.val * 16 + h.val) * 4096 + l.val) * 128 + d.val) % 128 = d.val; omega

/-- THE REFERENCE'S RESULT is block-diagonal attention of its three arguments. -/
theorem result_eq : val_main_v16 (F := Ideal) x0 x1 x2 = onHeads x0 x1 x2 := by
  funext i
  obtain ⟨b, h, l, d, rfl⟩ : ∃ (b : Fin 8) (h : Fin 16) (l : Fin 4096) (d : Fin 128), i = ix4 b h l d :=
    ⟨i 0, i 1, i 2, i 3, eq_ix4 i⟩
  rw [val_main_v16_apply, merge_idx, outputs_apply]
  rfl

end Cert.ReferenceIdeal.RefValue

end
-- ==== Proof.lean ====
/-
  The kernel computes block-diagonal (local) attention with blocks of 128 rows, and so does its reference.

  Over the extended reals, for arguments q, k, v of shape [8, 16, 4096, 128], both programs end with

    out[b, h, l, d] = Σ_u (p[w, u] / Σ_u' p[w, u']) · v[b, h, 128 n + u, d],   n = l / 128,  w = l mod 128,
    p[w, u] = exp (s[w, u] − max_u' s[w, u']),    s[w, u] = Σ_e q[b, h, 128 n + w, e] · k[b, h, 128 n + u, e]

  (Proof/Attention.lean, `onHeads`). The kernel's program merges batch and heads, cuts the merged arrays into boxes of
  32 slabs × 256 rows, and on each box re-tiles to 64 tiles of 128 rows before the same sequence of operations
  (Proof/Block.lean: one stored element; Proof/KernelValue.lean: the boxes cover the output, and the run). The reference
  cuts the sequence axis into 32 blocks directly (Proof/RefValue.lean). The two agree operation by operation: a
  matrix product into a zero accumulator is the host's product, a lane reduction is the host's reduction over the
  last axis, the reference's extra maximum against −∞ is the identity, and the quotient and the exponential are
  the same functions; no law of arithmetic beyond reindexing sums is used, so finiteness of the inputs is never opened.
  The idealization rewrote nothing, so it is preserved trivially; the three frames are the generated ones.
-/
import proofs.«123131_j27032524161234_2_alg».proof.Defs
import proofs.«123131_j27032524161234_2_alg».proof.Proof.Gen.Kernel
import proofs.«123131_j27032524161234_2_alg».proof.Proof.Gen.Kernel.Skeleton
import proofs.«123131_j27032524161234_2_alg».proof.Proof.Gen.Kernel.Launch
import proofs.«123131_j27032524161234_2_alg».proof.Proof.Gen.Kernel.Points
import proofs.«123131_j27032524161234_2_alg».proof.Proof.Gen.Kernel.Frame
import proofs.«123131_j27032524161234_2_alg».proof.Proof.Gen.KernelIdeal
import proofs.«123131_j27032524161234_2_alg».proof.Proof.Gen.KernelIdeal.Skeleton
import proofs.«123131_j27032524161234_2_alg».proof.Proof.Gen.KernelIdeal.Launch
import proofs.«123131_j27032524161234_2_alg».proof.Proof.Gen.KernelIdeal.Points
import proofs.«123131_j27032524161234_2_alg».proof.Proof.Gen.KernelIdeal.Frame
import proofs.«123131_j27032524161234_2_alg».proof.Proof.Gen.ReferenceIdeal
import proofs.«123131_j27032524161234_2_alg».proof.Proof.Gen.ReferenceIdeal.Run
import proofs.«123131_j27032524161234_2_alg».proof.Proof.Gen.ReferenceIdeal.Read
import proofs.«123131_j27032524161234_2_alg».proof.Proof.Gen.Pre_finite_inputs
import proofs.«123131_j27032524161234_2_alg».proof.Proof.Attention
import proofs.«123131_j27032524161234_2_alg».proof.Proof.KernelValue
import proofs.«123131_j27032524161234_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at block-diagonal attention of arguments that agree. -/
theorem algebraic : Cert.algebraic_KernelIdeal_ReferenceIdeal := by
  intro m ρ m' ρ' _ hagree
  refine ⟨fun c => Cert.LocalAttention.onHeads
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
